-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn_part1 {F : FTy → Type} [FloatOps F] (main_v13 : IVec S_ 1) (main_v16 : IVec S16777216 1) : IVec S_ 1 :=
  let main_c_5 : IVec S_ 1 := constantI S_ 1 1#1
  let main_v17 : IVec S_ 1 := (fun x v => Host.reduce IntOp.andi x v reducesTo_S16777216_S_d0 h_S_) main_v16 main_c_5
  let main_v18 : IVec S_ 1 := andi main_v13 main_v17
  main_v18

def fn {F : FTy → Type} [FloatOps F] (main_arg0 : FVec F S16777216 .f32) (main_arg1 : FVec F S16777216 .f32) (main_arg2 : FVec F S16777216 .f32) (main_arg3 : IVec S16777216 32) (main_arg4 : IVec S16777216 1) (main_arg5 : FVec F S16777216 .f32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  let main_v9 : FVec F S16777216 .f32 := Host.absf main_arg2
  let main_cst_2 : FVec F S_ .f32 := constant S_ .f32 0x7F800000#32
  let main_v10 : FVec F S16777216 .f32 := broadcastInDim S16777216 ![] bcast_S_S16777216 main_cst_2
  let main_v11 : IVec S16777216 1 := cmpf .olt main_v9 main_v10
  let main_c_3 : IVec S_ 1 := constantI S_ 1 1#1
  let main_v12 : IVec S_ 1 := (fun x v => Host.reduce IntOp.andi x v reducesTo_S16777216_S_d0 h_S_) main_v11 main_c_3
  let main_v13 : IVec S_ 1 := andi main_v8 main_v12
  let main_v14 : FVec F S16777216 .f32 := Host.absf main_arg5
  let main_cst_4 : FVec F S_ .f32 := constant S_ .f32 0x7F800000#32
  let main_v15 : FVec F S16777216 .f32 := broadcastInDim S16777216 ![] bcast_S_S16777216 main_cst_4
  let main_v16 : IVec S16777216 1 := cmpf .olt main_v14 main_v15
  fn_part1 (F := F) main_v13 main_v16
-- ==== Kernel.lean ====
abbrev S16777216 : Shape := ⟨1, ![16777216]⟩
abbrev S131072x128 : Shape := ⟨2, ![131072, 128]⟩
abbrev S1x1 : Shape := ⟨2, ![1, 1]⟩
abbrev S2048x128 : Shape := ⟨2, ![2048, 128]⟩
abbrev S2048 : Shape := ⟨1, ![2048]⟩
abbrev S2048x1 : Shape := ⟨2, ![2048, 1]⟩
abbrev S1 : Shape := ⟨1, ![1]⟩
abbrev S_ : Shape := ⟨0, ![]⟩

abbrev nBuf : Space → Nat
  | .hbm => 15
  | .vmem => 13
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .f32⟩
  | .hbm, ⟨3, _⟩ => ⟨S16777216, .i32⟩
  | .hbm, ⟨4, _⟩ => ⟨S16777216, .i1⟩
  | .hbm, ⟨5, _⟩ => ⟨S16777216, .f32⟩
  | .hbm, ⟨6, _⟩ => ⟨S131072x128, .f32⟩
  | .hbm, ⟨7, _⟩ => ⟨S131072x128, .f32⟩
  | .hbm, ⟨8, _⟩ => ⟨S131072x128, .f32⟩
  | .hbm, ⟨9, _⟩ => ⟨S131072x128, .f32⟩
  | .hbm, ⟨10, _⟩ => ⟨S131072x128, .i32⟩
  | .hbm, ⟨11, _⟩ => ⟨S16777216, .i32⟩
  | .hbm, ⟨12, _⟩ => ⟨S131072x128, .i32⟩
  | .hbm, ⟨13, _⟩ => ⟨S1x1, .f32⟩
  | .hbm, ⟨14, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .i32⟩
  | .local _ .vmem, ⟨9, _⟩ => ⟨S2048x128, .i32⟩
  | .local _ .vmem, ⟨10, _⟩ => ⟨S2048x128, .i32⟩
  | .local _ .vmem, ⟨11, _⟩ => ⟨S2048x128, .i32⟩
  | .local _ .vmem, ⟨12, _⟩ => ⟨S1x1, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  shapeCasts_S16777216_S131072x128 : S16777216.ShapeCasts S131072x128
  natLt_1_32 : 1 < 32
  inb_S1x1_S1x1_0_0 : ∀ a, (![0, 0] : Fin 2 → Nat) a + S1x1.size a ≤ S1x1.size a
  h_S1x1 : 0 < S1x1.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  reduces_S2048x128_S2048 : S2048x128.Reduces [1] S2048
  shapeCasts_S2048_S2048x1 : S2048.ShapeCasts S2048x1
  reduces_S2048x1_S1 : S2048x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S131072x128.size a
  hwx0_1 : ∀ i : grid0.Coords, EltTy.bits .f32 = 32 ∨ (Rect.block (s := S131072x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S131072x128.size a
  hwx0_2 : ∀ i : grid0.Coords, EltTy.bits .f32 = 32 ∨ (Rect.block (s := S131072x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S131072x128.size a
  hwx0_3 : ∀ i : grid0.Coords, EltTy.bits .f32 = 32 ∨ (Rect.block (s := S131072x128) S2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S131072x128.size a
  hwx0_4 : ∀ i : grid0.Coords, EltTy.bits .i32 = 32 ∨ (Rect.block (s := S131072x128) S2048x128.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S131072x128.size a
  hwx0_5 : ∀ i : grid0.Coords, EltTy.bits .i32 = 32 ∨ (Rect.block (s := S131072x128) S2048x128.size (cc0_transform_5 i) (hinb0_5 i)).WholeWords (EltTy.packing .i32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2048x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S2048x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16777216 : Shape := ⟨1, ![16777216]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .f32⟩
  | .hbm, ⟨3, _⟩ => ⟨S16777216, .i32⟩
  | .hbm, ⟨4, _⟩ => ⟨S16777216, .i1⟩
  | .hbm, ⟨5, _⟩ => ⟨S16777216, .f32⟩
  | .hbm, ⟨6, _⟩ => ⟨S_, .i32⟩
  | .hbm, ⟨7, _⟩ => ⟨S16777216, .i32⟩
  | .hbm, ⟨8, _⟩ => ⟨S16777216, .i1⟩
  | .hbm, ⟨9, _⟩ => ⟨S16777216, .f32⟩
  | .hbm, ⟨10, _⟩ => ⟨S16777216, .f32⟩
  | .hbm, ⟨11, _⟩ => ⟨S_, .f32⟩
  | .hbm, ⟨12, _⟩ => ⟨S16777216, .f32⟩
  | .hbm, ⟨13, _⟩ => ⟨S16777216, .f32⟩
  | .hbm, ⟨14, _⟩ => ⟨S16777216, .f32⟩
  | .hbm, ⟨15, _⟩ => ⟨S_, .f32⟩
  | .hbm, ⟨16, _⟩ => ⟨S16777216, .f32⟩
  | .hbm, ⟨17, _⟩ => ⟨S16777216, .f32⟩
  | .hbm, ⟨18, _⟩ => ⟨S16777216, .f32⟩
  | .hbm, ⟨19, _⟩ => ⟨S16777216, .f32⟩
  | .hbm, ⟨20, _⟩ => ⟨S_, .f32⟩
  | .hbm, ⟨21, _⟩ => ⟨S16777216, .f32⟩
  | .hbm, ⟨22, _⟩ => ⟨S16777216, .f32⟩
  | .hbm, ⟨23, _⟩ => ⟨S16777216, .f32⟩
  | .hbm, ⟨24, _⟩ => ⟨S16777216, .f32⟩
  | .hbm, ⟨25, _⟩ => ⟨S_, .f32⟩
  | .hbm, ⟨26, _⟩ => ⟨S16777216, .f32⟩
  | .hbm, ⟨27, _⟩ => ⟨S16777216, .f32⟩
  | .hbm, ⟨28, _⟩ => ⟨S_, .f32⟩
  | .hbm, ⟨29, _⟩ => ⟨S16777216, .f32⟩
  | .hbm, ⟨30, _⟩ => ⟨S16777216, .f32⟩
  | .hbm, ⟨31, _⟩ => ⟨S16777216, .f32⟩
  | .hbm, ⟨32, _⟩ => ⟨S16777216, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  reducesTo_S16777216_S_d0 : S16777216.ReducesTo [0] S_
  h_S_ : 0 < S_.numel

variable [Facts₀]

class Facts : Prop extends Facts₀ where

variable [Facts]
-- ==== Proof.CellAfterPoint.lean ====
/-
  What one grid point leaves in the kernel's one-cell accumulator, for any float values.

  The output block is a single cell that stays in place over the 64 grid points. A point loads its six
  2048 x 128 input blocks, forms the per-sample losses, sums them to one number, and adds that number to
  the cell:
    * the first point stores zero in the cell, reads it back, and leaves  zero + (its block's sum);
    * a middle point leaves  (what the point before left) + (its block's sum);
    * the last point does the same and then divides the cell by 2^24.
  Each statement below says this of the body's stores to the cell, latest first: the last store to
  the whole cell decides its contents, a load of the whole cell after a store to it reads that store's
  value, and a load of a whole input buffer reads the block it holds.
-/
import proofs.«119638_j27479200760241_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.CellAfterPoint

open Cert.KernelIdeal Cert.KernelIdeal.Gen

variable {F : FTy → Type} [FloatOps F]

/-- The zero offsets of a whole-block access. -/
theorem hz : (![0, 0] : Fin 2 → Nat) = fun _ => 0 := funext fun a => by fin_cases a <;> rfl

/-- The cell after adding one block's loss sum to a cell holding `xo`: the head selected by the ids
    (`x4`) from `x0`, `x1`; the Huber loss against the targets `x2`; the censored loss against the
    thresholds `x3`; the choice between them by the censoring flags `x5`; summed over lanes, then rows. -/
abbrev added (x0 x1 x2 x3 : Vec F S2048x128 .f32) (x4 x5 : Vec F S2048x128 .i32) (xo : Vec F S1x1 .f32) : Vec F S1x1 .f32 :=
  k0_pay1 (k0_pay5 x0 x1 x2 x4) (k0_pay6 x0 x1 x3 x4) (k0_pay7 x5) xo

/-- A middle point: one store to the cell, of the cell's old contents plus the block's sum. -/
theorem middle (c : Dev nD) (i : grid0.Coords) (a1 : Memref sig .tc .vmem S2048x128 .f32) (h1 : a1.IsWhole) (a2 : Memref sig .tc .vmem S2048x128 .f32) (h2 : a2.IsWhole) (a3 : Memref sig .tc .vmem S2048x128 .f32) (h3 : a3.IsWhole) (a4 : Memref sig .tc .vmem S2048x128 .f32) (h4 : a4.IsWhole) (a5 : Memref sig .tc .vmem S2048x128 .i32) (h5 : a5.IsWhole) (a6 : Memref sig .tc .vmem S2048x128 .i32) (h6 : a6.IsWhole) (a7 : Memref sig .tc .vmem S1x1 .f32) (h7 : a7.IsWhole) (hc0 : ¬cond0_0 i) (hc1 : ¬cond0_1 i) (x0 x1 x2 x3 : Vec F S2048x128 .f32) (x4 x5 : Vec F S2048x128 .i32) (xo : Vec F S1x1 .f32) :
    out0_B_6 c i a1 h1 a2 h2 a3 h3 a4 h4 a5 h5 a6 h6 a7 h7 hc0 hc1 x0 x1 x2 x3 x4 x5 xo = added x0 x1 x2 x3 x4 x5 xo := by
  unfold out0_B_6
  rw [View.read_writes_eq_canon _ _ _ (cover0_B_6 c i a1 h1 a2 h2 a3 h3 a4 h4 a5 h5 a6 h6 a7 h7 hc0 hc1 x0 x1 x2 x3 x4 x5 xo)]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, View.ld_unit_zero (S := S2048x128) hz, View.ld_unit_zero (S := S1x1) hz]

/-- The first point: the zero cell is stored and read back, so the cell ends at zero plus the block's sum. -/
theorem first (c : Dev nD) (i : grid0.Coords) (a1 : Memref sig .tc .vmem S2048x128 .f32) (h1 : a1.IsWhole) (a2 : Memref sig .tc .vmem S2048x128 .f32) (h2 : a2.IsWhole) (a3 : Memref sig .tc .vmem S2048x128 .f32) (h3 : a3.IsWhole) (a4 : Memref sig .tc .vmem S2048x128 .f32) (h4 : a4.IsWhole) (a5 : Memref sig .tc .vmem S2048x128 .i32) (h5 : a5.IsWhole) (a6 : Memref sig .tc .vmem S2048x128 .i32) (h6 : a6.IsWhole) (a7 : Memref sig .tc .vmem S1x1 .f32) (h7 : a7.IsWhole) (hc0 : cond0_0 i) (hc1 : ¬cond0_1 i) (x0 x1 x2 x3 : Vec F S2048x128 .f32) (x4 x5 : Vec F S2048x128 .i32) :
    out0_A_6 c i a1 h1 a2 h2 a3 h3 a4 h4 a5 h5 a6 h6 a7 h7 hc0 hc1 x0 x1 x2 x3 x4 x5 = added x0 x1 x2 x3 x4 x5 (k0_pay3 (F := F)) := by
  unfold out0_A_6
  rw [View.read_writes_eq_canon _ _ _ (cover0_A_6 c i a1 h1 a2 h2 a3 h3 a4 h4 a5 h5 a6 h6 a7 h7 hc0 hc1 x0 x1 x2 x3 x4 x5)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread, h6.read_unread,
    View.ld_unit_zero (S := S2048x128) hz]

/-- The last point: the sum is added as at a middle point, read back, and divided by 2^24. -/
theorem last (c : Dev nD) (i : grid0.Coords) (a1 : Memref sig .tc .vmem S2048x128 .f32) (h1 : a1.IsWhole) (a2 : Memref sig .tc .vmem S2048x128 .f32) (h2 : a2.IsWhole) (a3 : Memref sig .tc .vmem S2048x128 .f32) (h3 : a3.IsWhole) (a4 : Memref sig .tc .vmem S2048x128 .f32) (h4 : a4.IsWhole) (a5 : Memref sig .tc .vmem S2048x128 .i32) (h5 : a5.IsWhole) (a6 : Memref sig .tc .vmem S2048x128 .i32) (h6 : a6.IsWhole) (a7 : Memref sig .tc .vmem S1x1 .f32) (h7 : a7.IsWhole) (hc0 : ¬cond0_0 i) (hc1 : cond0_1 i) (x0 x1 x2 x3 : Vec F S2048x128 .f32) (x4 x5 : Vec F S2048x128 .i32) (xo : Vec F S1x1 .f32) :
    out0_C_6 c i a1 h1 a2 h2 a3 h3 a4 h4 a5 h5 a6 h6 a7 h7 hc0 hc1 x0 x1 x2 x3 x4 x5 xo = k0_pay2 (added x0 x1 x2 x3 x4 x5 xo) := by
  unfold out0_C_6
  rw [View.read_writes_eq_canon _ _ _ (cover0_C_6 c i a1 h1 a2 h2 a3 h3 a4 h4 a5 h5 a6 h6 a7 h7 hc0 hc1 x0 x1 x2 x3 x4 x5 xo)]
  unfold kernelRun0_C
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread, h6.read_unread,
    h7.read_unread, View.ld_unit_zero (S := S2048x128) hz, View.ld_unit_zero (S := S1x1) hz]

end Cert.KernelIdeal.CellAfterPoint

end
-- ==== Proof.LibBlockSum.lean ====
/-
  Two regrouping laws, stated generally.

  (1) A sum taken block by block.  Given `a · b` terms indexed by the natural numbers below `a · b`, cut them
  into `a` blocks of `b` consecutive terms, so that term `r` of block `t` is term `b·t + r` of the whole.
  In any commutative additive monoid the sum of the `a` block sums is the sum of all the terms.  On the
  extended reals this needs no finiteness assumption: their addition is commutative and associative
  (the sum of `+∞` and `−∞` is a fixed value whatever the order).

  (2) Scaling a square.  On the extended reals `c · (d · d) = (c · d) · d` for every `c` and `d`, infinite ones
  included: multiplication there is associative.
-/
import Mathlib.Data.EReal.Inv
import Mathlib.Algebra.BigOperators.Fin
import Mathlib.Logic.Equiv.Fin.Basic

namespace Cert.LibBlockSum

/-- The sum of `a` block sums of `b` consecutive terms is the sum of all `a · b` terms:
    `∑_{t < a} ∑_{r < b} g (b·t + r) = ∑_{q < a·b} g q`. -/
theorem sum_blocks {M : Type*} [AddCommMonoid M] (a b : ℕ) (g : ℕ → M) :
    ∑ t ∈ Finset.range a, ∑ r : Fin b, g (b * t + r.val) = ∑ q : Fin (a * b), g q.val :=
  calc ∑ t ∈ Finset.range a, ∑ r : Fin b, g (b * t + r.val)
      = ∑ t : Fin a, ∑ r : Fin b, g (b * t.val + r.val) :=
        (Fin.sum_univ_eq_sum_range (fun t => ∑ r : Fin b, g (b * t + r.val)) a).symm
    _ = ∑ p : Fin a × Fin b, g (b * p.1.val + p.2.val) :=
        (Fintype.sum_prod_type' (fun (t : Fin a) (r : Fin b) => g (b * t.val + r.val))).symm
    _ = ∑ q : Fin (a * b), g q.val :=
        Fintype.sum_equiv finProdFinEquiv _ _ fun p =>
          congrArg g (by rw [finProdFinEquiv_apply_val]; exact Nat.add_comm _ _)

/-- Scaling a square is scaling one factor and then multiplying by the other: `c · (d · d) = (c · d) · d`. -/
theorem scale_sq (c d : EReal) : c * (d * d) = c * d * d := (mul_assoc c d d).symm

end Cert.LibBlockSum
-- ==== Proof.LossSpec.lean ====
/-
  The loss both programs compute, as one function of the six argument arrays, over the extended reals.

  Per sample the prediction is the first head where the id is zero and the second head elsewhere. With
  a = |prediction - target| and q = min a 1 the uncensored (Huber) loss is (1/2)·(q·q) + 1·(a - q); the
  censored loss is 1·(z·z) with z = max (threshold - prediction) 0; the flag chooses between them. The
  result is (0 + the sum of the chosen losses over all 2^24 samples) divided by 2^24.

  Two arrangements of this meet here. One forms the quadratic term as ((1/2)·q)·q instead of (1/2)·(q·q):
  equal because multiplication of extended reals is associative. One sums the samples tile by tile — 64
  blocks of 2048 rows of 128 lanes, sample number 128·(2048·t + r) + l at lane l of row r of block t —
  instead of all at once: equal because addition of extended reals is commutative and associative, so a
  finite sum may be regrouped freely. Neither step needs the samples to be finite.
-/
import Idealize.ShloMosaic.PureOps.Ideal
import Idealize.ShloMosaic.PureOps.Ideal.Laws
import Idealize.ShloMosaic.Lib.ValueIdx
import proofs.«119638_j27479200760241_1_alg».proof.Proof.LibBlockSum

noncomputable section

namespace Cert.LossSpec

open Idealize.ShloMosaic Idealize.ShloMosaic.ValueIdx

/-- The three float constants, as the words both programs spell them with: 0, 1/2, 1. -/
abbrev zero : Ideal .f32 := FloatOps.ofBits .f32 0x00000000#32
abbrev half : Ideal .f32 := FloatOps.ofBits .f32 0x3F000000#32
abbrev one : Ideal .f32 := FloatOps.ofBits .f32 0x3F800000#32
/-- The divisor 2^24 = 16777216, as both programs spell it. -/
abbrev count : Ideal .f32 := FloatOps.ofBits .f32 0x4B800000#32

/-- The prediction: the first head where the id is zero, the second elsewhere. -/
def head (pe ps : Ideal .f32) (id : BitVec 32) : Ideal .f32 :=
  Scalar.select (IntOp.cmpi .eq id 0#32) pe ps

/-- Huber's loss with threshold 1, the quadratic term as (1/2)·(q·q). -/
def huber (p tg : Ideal .f32) : Ideal .f32 :=
  FloatOps.addf
    (FloatOps.mulf half (FloatOps.mulf (FloatOps.minimumf (FloatOps.absf (FloatOps.subf p tg)) one)
      (FloatOps.minimumf (FloatOps.absf (FloatOps.subf p tg)) one)))
    (FloatOps.mulf one (FloatOps.subf (FloatOps.absf (FloatOps.subf p tg))
      (FloatOps.minimumf (FloatOps.absf (FloatOps.subf p tg)) one)))

/-- The same with the quadratic term as ((1/2)·q)·q. -/
def huberLeft (p tg : Ideal .f32) : Ideal .f32 :=
  FloatOps.addf
    (FloatOps.mulf (FloatOps.mulf half (FloatOps.minimumf (FloatOps.absf (FloatOps.subf p tg)) one))
      (FloatOps.minimumf (FloatOps.absf (FloatOps.subf p tg)) one))
    (FloatOps.mulf one (FloatOps.subf (FloatOps.absf (FloatOps.subf p tg))
      (FloatOps.minimumf (FloatOps.absf (FloatOps.subf p tg)) one)))

/-- The two are one number: (c·q)·q = c·(q·q) on the extended reals. -/
theorem huberLeft_eq (p tg : Ideal .f32) : huberLeft p tg = huber p tg := by
  unfold huberLeft huber
  simp only [Ideal.addf_def, Ideal.mulf_def]
  rw [Cert.LibBlockSum.scale_sq]

/-- The censored loss: 1·(z·z), z = max (threshold - prediction) 0. -/
def censored (p th : Ideal .f32) : Ideal .f32 :=
  FloatOps.mulf one (FloatOps.mulf (FloatOps.maximumf (FloatOps.subf th p) zero) (FloatOps.maximumf (FloatOps.subf th p) zero))

/-- One sample's loss: the censored loss where the flag is set, Huber's elsewhere. -/
def sample (pe ps tg : Ideal .f32) (id : BitVec 32) (flag : BitVec 1) (th : Ideal .f32) : Ideal .f32 :=
  Scalar.select flag (censored (head pe ps id) th) (huber (head pe ps id) tg)

/-- The same with Huber's quadratic term grouped to the left. -/
def sampleLeft (pe ps tg : Ideal .f32) (id : BitVec 32) (flag : BitVec 1) (th : Ideal .f32) : Ideal .f32 :=
  Scalar.select flag (censored (head pe ps id) th) (huberLeft (head pe ps id) tg)

theorem sampleLeft_eq (pe ps tg : Ideal .f32) (id : BitVec 32) (flag : BitVec 1) (th : Ideal .f32) :
    sampleLeft pe ps tg id flag th = sample pe ps tg id flag th := by
  unfold sampleLeft sample
  rw [huberLeft_eq]

/-- A one-bit flag widened to 32 bits is nonzero exactly when it was set. -/
theorem flag_of_widened : ∀ b : BitVec 1, IntOp.cmpi .ne (b.setWidth 32) 0#32 = b := by decide

/-- The index type of a length-2^24 array, and sample number `q` in it. -/
abbrev Samples : Type := (⟨1, ![16777216]⟩ : Shape).Idx

/-- The mean: (0 + the sum over all samples) / 2^24. -/
def mean (f : Samples → EReal) : EReal := Ideal.div (zero + ∑ j : Samples, f j) count

/-- A family over the samples read at a natural number (zero past the end, which no tile reaches). -/
def atNat {M : Type*} [AddCommMonoid M] (f : Samples → M) (q : ℕ) : M :=
  if h : q < 16777216 then f (ix1 ⟨q, h⟩) else 0

theorem atNat_of_lt {M : Type*} [AddCommMonoid M] (f : Samples → M) {q : ℕ} (h : q < 16777216) :
    atNat f q = f (ix1 ⟨q, h⟩) := dif_pos h

/-- The samples are numbered by the natural numbers below 2^24. -/
def samplesEquiv : Fin 16777216 ≃ Samples where
  toFun q := ix1 q
  invFun j := j 0
  left_inv _ := rfl
  right_inv j := (eq_ix1 j).symm

/-- Summing tile by tile — 64 blocks of 2048 rows of 128 lanes, in row-major order — is summing all the
    samples: two regroupings of consecutive runs (lanes into rows, rows into blocks), then the numbering. -/
theorem sum_tiles {M : Type*} [AddCommMonoid M] (f : Samples → M) :
    ∑ t ∈ Finset.range 64, ∑ r : Fin 2048, ∑ l : Fin 128, atNat f (128 * (2048 * t + r.val) + l.val)
      = ∑ j : Samples, f j :=
  calc ∑ t ∈ Finset.range 64, ∑ r : Fin 2048, ∑ l : Fin 128, atNat f (128 * (2048 * t + r.val) + l.val)
      = ∑ R : Fin (64 * 2048), ∑ l : Fin 128, atNat f (128 * R.val + l.val) :=
        Cert.LibBlockSum.sum_blocks 64 2048 (fun R => ∑ l : Fin 128, atNat f (128 * R + l.val))
    _ = ∑ R ∈ Finset.range (64 * 2048), ∑ l : Fin 128, atNat f (128 * R + l.val) :=
        Fin.sum_univ_eq_sum_range (fun R => ∑ l : Fin 128, atNat f (128 * R + l.val)) (64 * 2048)
    _ = ∑ q : Fin (64 * 2048 * 128), atNat f q.val := Cert.LibBlockSum.sum_blocks (64 * 2048) 128 (atNat f)
    _ = ∑ q : Fin 16777216, f (samplesEquiv q) := Finset.sum_congr rfl fun q _ => atNat_of_lt f q.isLt
    _ = ∑ j : Samples, f j := Equiv.sum_comp samplesEquiv f

end Cert.LossSpec

end
-- ==== Proof.LibColumn.lean ====
/-
  Column vectors read at an index.

  A vector of length `a` re-laid as an `a × 1` column holds, at row `i`, the vector's entry `i`.
  An `a × 1` column broadcast to `a × b` holds, at `(p, c)`, the column's entry at row `p`.
  Summing an `a × 1` column over its rows, or an `a × b` array over its columns, inserts the summed
  coordinate at the place the reduced index leaves open: the inserted index is `(k, u)` resp. `(r, k)`.
-/
import Idealize.ShloMosaic.Lib.Pipeline.Value
import Idealize.ShloMosaic.Lib.ValueIdx
import Idealize.ShloMosaic.PureOps.Reduce

namespace Cert.LibColumn

open Idealize.ShloMosaic Idealize.ShloMosaic.ValueIdx

variable {α : Type}

/-- A length-`a` vector cast to an `a × 1` column reads, at `(i, 0)`, the vector at `i`:
    both positions are number `i` in row-major order. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Summing an `a × b` array along its columns: the index of row `r` with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Summing an `a × 1` column along its rows: the one reduced index with row `k` put back is `(k, 0)`. -/
theorem lift_rows {a : ℕ} (h : (⟨2, ![a, 1]⟩ : Shape).Reduces [0] (⟨1, ![1]⟩ : Shape)) (u : Fin 1)
    (k : Fin ((⟨2, ![a, 1]⟩ : Shape).size 0)) : h.lift (ix1 u) k = ix2 (⟨k.val, k.isLt⟩ : Fin a) u := by
  funext c; apply Fin.ext
  fin_cases c <;> rfl

end Cert.LibColumn
-- ==== Proof.BlockSum.lean ====
/-
  One block's contribution, over the extended reals.

  At lane l of row r of a 2048 x 128 block the kernel's selected loss is the specification's per-sample
  loss (quadratic term grouped to the left, the flag recovered from its 32-bit widening by comparing with
  zero) of the six blocks' entries there. The kernel sums each row over its 128 lanes, stands the 2048 row
  sums up as a column, and sums the column over its rows; so what it adds to the cell is the double sum
  over rows and lanes of the selected loss, and the cell ends at (old cell) + (that double sum).
-/
import proofs.«119638_j27479200760241_1_alg».proof.Proof.CellAfterPoint
import proofs.«119638_j27479200760241_1_alg».proof.Proof.LossSpec
import proofs.«119638_j27479200760241_1_alg».proof.Proof.LibColumn
import Idealize.ShloMosaic.PureOps.Ideal.Laws
import Idealize.ShloMosaic.Lib.ValueIdx

noncomputable section

open Idealize.ShloMosaic Idealize.ShloMosaic.TcCoe Idealize.SL.Sem

namespace Cert.KernelIdeal.BlockSum

open Cert.KernelIdeal Cert.KernelIdeal.Gen Cert.KernelIdeal.CellAfterPoint Cert.LossSpec Idealize.ShloMosaic.ValueIdx

/-- The block of selected losses: censored where the flag word is nonzero, Huber's elsewhere. -/
abbrev selected (x0 x1 x2 x3 : Vec Ideal S2048x128 .f32) (x4 x5 : Vec Ideal S2048x128 .i32) : FVec Ideal S2048x128 .f32 :=
  select (k0_pay7 (F := Ideal) x5) (k0_pay6 x0 x1 x3 x4) (k0_pay5 x0 x1 x2 x4)

/-- At lane `l` of row `r` it is the per-sample loss of the blocks' entries there. -/
theorem selected_apply (x0 x1 x2 x3 : Vec Ideal S2048x128 .f32) (x4 x5 : Vec Ideal S2048x128 .i32) (r : Fin 2048) (l : Fin 128) :
    selected x0 x1 x2 x3 x4 x5 (ix2 r l)
      = sampleLeft (x0 (ix2 r l)) (x1 (ix2 r l)) (x2 (ix2 r l)) (x4 (ix2 r l)) (IntOp.cmpi .ne (x5 (ix2 r l)) 0#32) (x3 (ix2 r l)) := by
  unfold sampleLeft censored huberLeft head
  simp only [selected, k0_pay7, k0_pay6, k0_pay5, k0_pay4, shapeCast_self]
  rfl

/-- A row's sum over its lanes, then the column of row sums over its rows: the double sum. -/
theorem rows_of_lanes (v : FVec Ideal S2048x128 .f32) (hφ : FKind.Formats .f32)
    (hacc : (0x00000000#32 : BitVec 32) = FKind.add.neutral .f32 hφ) (u : Fin 1) :
    multiReduction .add [0] S1
        (shapeCast S2048x1 (multiReduction .add [1] S2048 v 0x00000000#32 Facts₀.reduces_S2048x128_S2048 hφ hacc) Facts₀.shapeCasts_S2048_S2048x1)
        0x00000000#32 Facts₀.reduces_S2048x1_S1 hφ hacc (ix1 u)
      = ∑ r : Fin 2048, ∑ l : Fin 128, v (ix2 r l) := by
  refine (Ideal.multiReduction_add_single _ 0x00000000#32 Facts₀.reduces_S2048x1_S1 hφ hacc (ix1 u)).trans ?_
  refine Finset.sum_congr rfl fun r _ => ?_
  refine (congrArg _ (Cert.LibColumn.lift_rows Facts₀.reduces_S2048x1_S1 u r)).trans ?_
  refine (Cert.LibColumn.shapeCast_a_a1_apply _ Facts₀.shapeCasts_S2048_S2048x1 _ u).trans ?_
  refine (Ideal.multiReduction_add_single v 0x00000000#32 Facts₀.reduces_S2048x128_S2048 hφ hacc (ix1 _)).trans ?_
  exact Finset.sum_congr rfl fun l _ => congrArg v (Cert.LibColumn.lift_cols Facts₀.reduces_S2048x128_S2048 _ l)

/-- What a point adds: the cell ends at its old contents plus the block's double sum of selected losses. -/
theorem added_apply (x0 x1 x2 x3 : Vec Ideal S2048x128 .f32) (x4 x5 : Vec Ideal S2048x128 .i32) (xo : Vec Ideal S1x1 .f32) (u w : Fin 1) :
    added x0 x1 x2 x3 x4 x5 xo (ix2 u w)
      = xo (ix2 u w) + ∑ r : Fin 2048, ∑ l : Fin 128, selected x0 x1 x2 x3 x4 x5 (ix2 r l) := by
  show (shapeCast S1x1 xo Facts₀.shapeCasts_S1x1_S1x1) (ix2 u w) + (shapeCast S1x1 _ Facts₀.shapeCasts_S1_S1x1) (ix2 u w) = _
  refine congrArg₂ (· + ·) (congrFun (shapeCast_self xo _) _) ?_
  refine (Cert.LibColumn.shapeCast_a_a1_apply _ Facts₀.shapeCasts_S1_S1x1 u w).trans ?_
  exact rows_of_lanes (selected x0 x1 x2 x3 x4 x5) (.inl rfl) rfl u

end Cert.KernelIdeal.BlockSum

end
-- ==== Proof.LibFlatRows.lean ====
/-
  A flat vector re-laid as rows, read at an index.

  A vector of length `n` re-laid (row-major) as an `a × b` array holds, at column `q` of row `p`, the
  vector's entry number `b·p + q`: both positions are number `b·p + q` in row-major order.
-/
import Idealize.ShloMosaic.Lib.Pipeline.Value
import Idealize.ShloMosaic.Lib.ValueIdx

namespace Cert.LibFlatRows

open Idealize.ShloMosaic Idealize.ShloMosaic.ValueIdx

variable {α : Type}

/-- A length-`n` vector cast to `a × b` reads, at `(p, q)`, the vector at `b·p + q`. -/
theorem shapeCast_n_ab_apply {a b n : ℕ} (x : (⟨1, ![n]⟩ : Shape).Idx → α)
    (h : (⟨1, ![n]⟩ : Shape).ShapeCasts ⟨2, ![a, b]⟩) (p : Fin a) (q : Fin b) (hq : b * p.val + q.val < n) :
    shapeCast ⟨2, ![a, b]⟩ x h (ix2 p q) = x (ix1 ⟨b * p.val + q.val, hq⟩) :=
  shapeCast_apply x h _ _ (by
    rw [Shape.rowMajor_val_two, Shape.rowMajor_val_one]
    show b * p.val + q.val = p.val * b + q.val
    rw [Nat.mul_comm])

end Cert.LibFlatRows
-- ==== Proof.BlockRead.lean ====
/-
  Where a block's entry sits in the argument arrays.

  Before the kernel is launched the host re-lays each length-2^24 argument as 131072 rows of 128 lanes
  (the flags first widened from one bit to 32). Grid point t takes rows 2048·t … 2048·t + 2047 of each.
  So lane l of row r of point t's block of an operand is that argument's entry number
  128·(2048·t + r) + l, for every operand alike.
-/
import proofs.«119638_j27479200760241_1_alg».proof.Proof.Gen.KernelIdeal.Frame
import proofs.«119638_j27479200760241_1_alg».proof.Proof.LibFlatRows
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem

namespace Cert.KernelIdeal.BlockRead

open Cert.KernelIdeal Cert.KernelIdeal.Gen Idealize.ShloMosaic.ValueIdx

variable {F : FTy → Type} [FloatOps F]
variable (m : (ℓ : Loc nD τ sig) → Buf (Elt F) ℓ)

/-- Entry number of lane `l` of row `r` of point `t`'s block. -/
abbrev pos (t : Fin cfg0.N) (r : Fin 2048) (l : Fin 128) : ℕ := 128 * (2048 * t.val + r.val) + l.val

theorem pos_lt (t : Fin cfg0.N) (r : Fin 2048) (l : Fin 128) : pos t r l < 16777216 := by
  have hN : t.val < 64 := lt_of_lt_of_eq t.isLt (show cfg0.N = 64 from N_0)
  have := r.isLt; have := l.isLt
  show 128 * (2048 * t.val + r.val) + l.val < 16777216
  omega

theorem row_lt (t : Fin cfg0.N) (r : Fin 2048) : 2048 * t.val + r.val < 131072 := by
  have hN : t.val < 64 := lt_of_lt_of_eq t.isLt (show cfg0.N = 64 from N_0)
  have := r.isLt
  omega

/-- The sample index of that entry. -/
abbrev at_ (t : Fin cfg0.N) (r : Fin 2048) (l : Fin 128) : S16777216.Idx := ix1 ⟨pos t r l, pos_lt t r l⟩

/-! ### The host lines before the launch -/

theorem V_v0 (c : Dev nD) : (V m c main_v0 : S131072x128.Idx → F .f32)
    = shapeCast S131072x128 (m ((c : Thread nD τ).loc main_arg0)) Facts₀.shapeCasts_S16777216_S131072x128 := by
  show StableHlo.after hostOps0 (fun b => m (c, b)) (Proc.devRef .tc main_v0) = _
  after_results
  rfl
theorem V_v1 (c : Dev nD) : (V m c main_v1 : S131072x128.Idx → F .f32)
    = shapeCast S131072x128 (m ((c : Thread nD τ).loc main_arg1)) Facts₀.shapeCasts_S16777216_S131072x128 := by
  show StableHlo.after hostOps0 (fun b => m (c, b)) (Proc.devRef .tc main_v1) = _
  after_results
  rfl
theorem V_v2 (c : Dev nD) : (V m c main_v2 : S131072x128.Idx → F .f32)
    = shapeCast S131072x128 (m ((c : Thread nD τ).loc main_arg2)) Facts₀.shapeCasts_S16777216_S131072x128 := by
  show StableHlo.after hostOps0 (fun b => m (c, b)) (Proc.devRef .tc main_v2) = _
  after_results
  rfl
theorem V_v3 (c : Dev nD) : (V m c main_v3 : S131072x128.Idx → F .f32)
    = shapeCast S131072x128 (m ((c : Thread nD τ).loc main_arg5)) Facts₀.shapeCasts_S16777216_S131072x128 := by
  show StableHlo.after hostOps0 (fun b => m (c, b)) (Proc.devRef .tc main_v3) = _
  after_results
  rfl
theorem V_v4 (c : Dev nD) : (V m c main_v4 : S131072x128.Idx → BitVec 32)
    = shapeCast S131072x128 (m ((c : Thread nD τ).loc main_arg3)) Facts₀.shapeCasts_S16777216_S131072x128 := by
  show StableHlo.after hostOps0 (fun b => m (c, b)) (Proc.devRef .tc main_v4) = _
  after_results
  rfl
theorem V_v6 (c : Dev nD) : (V m c main_v6 : S131072x128.Idx → BitVec 32)
    = shapeCast S131072x128 (extui 32 (m ((c : Thread nD τ).loc main_arg4)) Facts₀.natLt_1_32) Facts₀.shapeCasts_S16777216_S131072x128 := by
  show StableHlo.after hostOps0 (fun b => m (c, b)) (Proc.devRef .tc main_v6) = _
  after_results
  rfl

/-! ### The windows' blocks -/

/-- Operand 0's index map sends point `t` to block row `t`, block column 0 (decided over the grid). -/
theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Operand 0's block at point `t`, at lane `l` of row `r`: the re-laid array at row 2048·t + r, lane l. -/
theorem block0_apply (c : Dev nD) (t : Fin cfg0.N) (r : Fin 2048) (l : Fin 128) :
    (iblk m c 0 t : Vec F S2048x128 .f32) (ix2 r l)
      = (V m c main_v0 : S131072x128.Idx → Elt F .f32) (ix2 ⟨2048 * t.val + r.val, row_lt t r⟩ l) := by
  unfold iblk
  rw [View.read_apply]
  show V m c main_v0 _ = V m c main_v0 _
  congr 1
  funext a
  apply Fin.ext
  match a with
  | ⟨0, _⟩ => show win0_0.index t 0 * 2048 + 1 * r.val = 2048 * t.val + r.val; rw [(index0 t).1]; omega
  | ⟨1, _⟩ => show win0_0.index t 1 * 128 + 1 * l.val = l.val; rw [(index0 t).2]; omega

/-- Operand 1's index map sends point `t` to block row `t`, block column 0 (decided over the grid). -/
theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Operand 1's block at point `t`, at lane `l` of row `r`: the re-laid array at row 2048·t + r, lane l. -/
theorem block1_apply (c : Dev nD) (t : Fin cfg0.N) (r : Fin 2048) (l : Fin 128) :
    (iblk m c 1 t : Vec F S2048x128 .f32) (ix2 r l)
      = (V m c main_v1 : S131072x128.Idx → Elt F .f32) (ix2 ⟨2048 * t.val + r.val, row_lt t r⟩ l) := by
  unfold iblk
  rw [View.read_apply]
  show V m c main_v1 _ = V m c main_v1 _
  congr 1
  funext a
  apply Fin.ext
  match a with
  | ⟨0, _⟩ => show win0_1.index t 0 * 2048 + 1 * r.val = 2048 * t.val + r.val; rw [(index1 t).1]; omega
  | ⟨1, _⟩ => show win0_1.index t 1 * 128 + 1 * l.val = l.val; rw [(index1 t).2]; omega

/-- Operand 2's index map sends point `t` to block row `t`, block column 0 (decided over the grid). -/
theorem index2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- Operand 2's block at point `t`, at lane `l` of row `r`: the re-laid array at row 2048·t + r, lane l. -/
theorem block2_apply (c : Dev nD) (t : Fin cfg0.N) (r : Fin 2048) (l : Fin 128) :
    (iblk m c 2 t : Vec F S2048x128 .f32) (ix2 r l)
      = (V m c main_v2 : S131072x128.Idx → Elt F .f32) (ix2 ⟨2048 * t.val + r.val, row_lt t r⟩ l) := by
  unfold iblk
  rw [View.read_apply]
  show V m c main_v2 _ = V m c main_v2 _
  congr 1
  funext a
  apply Fin.ext
  match a with
  | ⟨0, _⟩ => show win0_2.index t 0 * 2048 + 1 * r.val = 2048 * t.val + r.val; rw [(index2 t).1]; omega
  | ⟨1, _⟩ => show win0_2.index t 1 * 128 + 1 * l.val = l.val; rw [(index2 t).2]; omega

/-- Operand 3's index map sends point `t` to block row `t`, block column 0 (decided over the grid). -/
theorem index3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- Operand 3's block at point `t`, at lane `l` of row `r`: the re-laid array at row 2048·t + r, lane l. -/
theorem block3_apply (c : Dev nD) (t : Fin cfg0.N) (r : Fin 2048) (l : Fin 128) :
    (iblk m c 3 t : Vec F S2048x128 .f32) (ix2 r l)
      = (V m c main_v3 : S131072x128.Idx → Elt F .f32) (ix2 ⟨2048 * t.val + r.val, row_lt t r⟩ l) := by
  unfold iblk
  rw [View.read_apply]
  show V m c main_v3 _ = V m c main_v3 _
  congr 1
  funext a
  apply Fin.ext
  match a with
  | ⟨0, _⟩ => show win0_3.index t 0 * 2048 + 1 * r.val = 2048 * t.val + r.val; rw [(index3 t).1]; omega
  | ⟨1, _⟩ => show win0_3.index t 1 * 128 + 1 * l.val = l.val; rw [(index3 t).2]; omega

/-- Operand 4's index map sends point `t` to block row `t`, block column 0 (decided over the grid). -/
theorem index4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

/-- Operand 4's block at point `t`, at lane `l` of row `r`: the re-laid array at row 2048·t + r, lane l. -/
theorem block4_apply (c : Dev nD) (t : Fin cfg0.N) (r : Fin 2048) (l : Fin 128) :
    (iblk m c 4 t : Vec F S2048x128 .i32) (ix2 r l)
      = (V m c main_v4 : S131072x128.Idx → Elt F .i32) (ix2 ⟨2048 * t.val + r.val, row_lt t r⟩ l) := by
  unfold iblk
  rw [View.read_apply]
  show V m c main_v4 _ = V m c main_v4 _
  congr 1
  funext a
  apply Fin.ext
  match a with
  | ⟨0, _⟩ => show win0_4.index t 0 * 2048 + 1 * r.val = 2048 * t.val + r.val; rw [(index4 t).1]; omega
  | ⟨1, _⟩ => show win0_4.index t 1 * 128 + 1 * l.val = l.val; rw [(index4 t).2]; omega

/-- Operand 5's index map sends point `t` to block row `t`, block column 0 (decided over the grid). -/
theorem index5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

/-- Operand 5's block at point `t`, at lane `l` of row `r`: the re-laid array at row 2048·t + r, lane l. -/
theorem block5_apply (c : Dev nD) (t : Fin cfg0.N) (r : Fin 2048) (l : Fin 128) :
    (iblk m c 5 t : Vec F S2048x128 .i32) (ix2 r l)
      = (V m c main_v6 : S131072x128.Idx → Elt F .i32) (ix2 ⟨2048 * t.val + r.val, row_lt t r⟩ l) := by
  unfold iblk
  rw [View.read_apply]
  show V m c main_v6 _ = V m c main_v6 _
  congr 1
  funext a
  apply Fin.ext
  match a with
  | ⟨0, _⟩ => show win0_5.index t 0 * 2048 + 1 * r.val = 2048 * t.val + r.val; rw [(index5 t).1]; omega
  | ⟨1, _⟩ => show win0_5.index t 1 * 128 + 1 * l.val = l.val; rw [(index5 t).2]; omega

/-! ### A block's entry, in the argument array -/

theorem pe_apply (c : Dev nD) (t : Fin cfg0.N) (r : Fin 2048) (l : Fin 128) :
    (iblk m c 0 t : Vec F S2048x128 .f32) (ix2 r l) = m ((c : Thread nD τ).loc main_arg0) (at_ t r l) := by
  rw [block0_apply, V_v0]
  exact Cert.LibFlatRows.shapeCast_n_ab_apply _ _ _ l (pos_lt t r l)
theorem ps_apply (c : Dev nD) (t : Fin cfg0.N) (r : Fin 2048) (l : Fin 128) :
    (iblk m c 1 t : Vec F S2048x128 .f32) (ix2 r l) = m ((c : Thread nD τ).loc main_arg1) (at_ t r l) := by
  rw [block1_apply, V_v1]
  exact Cert.LibFlatRows.shapeCast_n_ab_apply _ _ _ l (pos_lt t r l)
theorem tg_apply (c : Dev nD) (t : Fin cfg0.N) (r : Fin 2048) (l : Fin 128) :
    (iblk m c 2 t : Vec F S2048x128 .f32) (ix2 r l) = m ((c : Thread nD τ).loc main_arg2) (at_ t r l) := by
  rw [block2_apply, V_v2]
  exact Cert.LibFlatRows.shapeCast_n_ab_apply _ _ _ l (pos_lt t r l)
theorem th_apply (c : Dev nD) (t : Fin cfg0.N) (r : Fin 2048) (l : Fin 128) :
    (iblk m c 3 t : Vec F S2048x128 .f32) (ix2 r l) = m ((c : Thread nD τ).loc main_arg5) (at_ t r l) := by
  rw [block3_apply, V_v3]
  exact Cert.LibFlatRows.shapeCast_n_ab_apply _ _ _ l (pos_lt t r l)
theorem id_apply (c : Dev nD) (t : Fin cfg0.N) (r : Fin 2048) (l : Fin 128) :
    (iblk m c 4 t : Vec F S2048x128 .i32) (ix2 r l) = m ((c : Thread nD τ).loc main_arg3) (at_ t r l) := by
  rw [block4_apply, V_v4]
  exact Cert.LibFlatRows.shapeCast_n_ab_apply _ _ _ l (pos_lt t r l)
/-- The flag word: the argument's one-bit flag, widened to 32 bits. -/
theorem flag_apply (c : Dev nD) (t : Fin cfg0.N) (r : Fin 2048) (l : Fin 128) :
    (iblk m c 5 t : Vec F S2048x128 .i32) (ix2 r l)
      = (m ((c : Thread nD τ).loc main_arg4) (at_ t r l) : BitVec 1).setWidth 32 := by
  rw [block5_apply, V_v6]
  exact Cert.LibFlatRows.shapeCast_n_ab_apply _ _ _ l (pos_lt t r l)

end Cert.KernelIdeal.BlockRead

end
-- ==== Proof.RunningSum.lean ====
/-
  The cell across the grid, over the extended reals.

  Write s(t) for the sum, over the 2048 rows and 128 lanes of point t's blocks, of the per-sample loss of
  the arguments' entries there. The first point leaves 0 + s(0) in the cell; each later point adds its
  s(t); so after point n the cell holds 0 + (s(0) + … + s(n)) — by induction on the point, regrouping the
  partial sums by associativity of addition. The last point, 63, then divides by 2^24. The 64 block sums
  together run over every sample exactly once (the specification's tiling law), so the cell ends at the
  mean loss.
-/
import proofs.«119638_j27479200760241_1_alg».proof.Proof.BlockSum
import proofs.«119638_j27479200760241_1_alg».proof.Proof.BlockRead
import proofs.«119638_j27479200760241_1_alg».proof.Proof.LossSpec

noncomputable section

open Idealize.ShloMosaic Idealize.ShloMosaic.TcCoe Idealize.SL.Sem

namespace Cert.KernelIdeal.RunningSum

open Cert.KernelIdeal Cert.KernelIdeal.Gen Cert.KernelIdeal.CellAfterPoint Cert.KernelIdeal.BlockSum Cert.KernelIdeal.BlockRead
open Cert.LossSpec Idealize.ShloMosaic.ValueIdx

variable (m : (ℓ : Loc nD τ sig) → Buf (Elt Ideal) ℓ)

/-- The per-sample loss of the arguments' entries at sample `j`. -/
def loss (c : Dev nD) (j : Samples) : EReal :=
  sample (m ((c : Thread nD τ).loc main_arg0) j) (m ((c : Thread nD τ).loc main_arg1) j) (m ((c : Thread nD τ).loc main_arg2) j)
    (m ((c : Thread nD τ).loc main_arg3) j) (m ((c : Thread nD τ).loc main_arg4) j) (m ((c : Thread nD τ).loc main_arg5) j)

/-- s(t): point `t`'s block sum. -/
def blockSum (c : Dev nD) (t : ℕ) : EReal :=
  ∑ r : Fin 2048, ∑ l : Fin 128, atNat (loss m c) (128 * (2048 * t + r.val) + l.val)

/-- The cell after point `n`: 0 + (s(0) + … + s(n)). -/
def cellAfter (c : Dev nD) (n : ℕ) : EReal := zero + ∑ t ∈ Finset.range (n + 1), blockSum m c t

theorem cellAfter_zero (c : Dev nD) : cellAfter m c 0 = zero + blockSum m c 0 := by
  unfold cellAfter; rw [Finset.sum_range_one]

theorem cellAfter_succ (c : Dev nD) (n : ℕ) : cellAfter m c (n + 1) = cellAfter m c n + blockSum m c (n + 1) := by
  unfold cellAfter; rw [Finset.sum_range_succ, add_assoc]

/-- A cell holding the number `v`. -/
abbrev cell (v : EReal) : Vec Ideal S1x1 .f32 := fun _ => v

/-- The selected loss at lane `l` of row `r` of point `t`'s blocks is the loss of sample 128·(2048·t + r) + l. -/
theorem selected_point (c : Dev nD) (t : Fin cfg0.N) (r : Fin 2048) (l : Fin 128) :
    selected (iblk m c 0 t) (iblk m c 1 t) (iblk m c 2 t) (iblk m c 3 t) (iblk m c 4 t) (iblk m c 5 t) (ix2 r l)
      = atNat (loss m c) (128 * (2048 * t.val + r.val) + l.val) := by
  refine (selected_apply _ _ _ _ _ _ r l).trans ?_
  rw [sampleLeft_eq, pe_apply m c t r l, ps_apply m c t r l, tg_apply m c t r l, id_apply m c t r l, flag_apply m c t r l,
    th_apply m c t r l, flag_of_widened, atNat_of_lt (loss m c) (pos_lt t r l)]
  rfl

/-- Adding point `t`'s block to a cell holding `v` leaves `v + s(t)`. -/
theorem added_point (c : Dev nD) (t : Fin cfg0.N) (v : EReal) :
    added (iblk m c 0 t) (iblk m c 1 t) (iblk m c 2 t) (iblk m c 3 t) (iblk m c 4 t) (iblk m c 5 t) (cell v)
      = cell (v + blockSum m c t.val) := by
  funext y
  obtain ⟨u, w, rfl⟩ : ∃ (u w : Fin 1), y = ix2 u w := ⟨y 0, y 1, eq_ix2 y⟩
  refine (added_apply _ _ _ _ _ _ (cell v) u w).trans ?_
  exact congrArg (v + ·) (Finset.sum_congr rfl fun r _ => Finset.sum_congr rfl fun l _ => selected_point m c t r l)

/-- The zero the first point stores. -/
theorem zero_cell : (k0_pay3 (F := Ideal)) = cell zero := rfl

/-- Dividing a cell holding `v` by 2^24. -/
theorem divided (v : EReal) : k0_pay2 (F := Ideal) (cell v) = cell (Ideal.div v count) := by
  funext y
  simp only [k0_pay2, shapeCast_self]
  rfl

/-- After any point but the last the cell holds the running sum — by induction on the point. -/
theorem cell_before_last (c : Dev nD) : ∀ (n : ℕ) (h : n < cfg0.N), n < 63 → outsAt0 m c n h = cell (cellAfter m c n)
  | 0, h, _ => by
    refine (outsAt0_A m c ⟨0, h⟩ rfl (by show ¬(0 % 64 = 63); decide)).trans ?_
    refine (first c _ _ _ _ _ _ _ _ _ _ _ _ _ _ _ _ _ _ _ _ _ _ _).trans ?_
    rw [zero_cell, added_point m c ⟨0, h⟩ zero, cellAfter_zero]
  | n + 1, h, hn => by
    have h0 : ¬(⟨n + 1, h⟩ : Fin cfg0.N).val % 64 = 0 := by dsimp only; omega
    have h1 : ¬(⟨n + 1, h⟩ : Fin cfg0.N).val % 64 = 63 := by dsimp only; omega
    refine (outsAt0_B m c ⟨n + 1, h⟩ h0 h1).trans ?_
    refine (middle c _ _ _ _ _ _ _ _ _ _ _ _ _ _ _ _ _ _ _ _ _ _ _ _).trans ?_
    show added _ _ _ _ _ _ (outsAt0 m c n _) = _
    rw [cell_before_last c n (Nat.lt_of_succ_lt h) (by omega), added_point m c ⟨n + 1, h⟩, cellAfter_succ]

/-- The last point. -/
abbrev lastPt : Fin cfg0.N := ⟨63, by rw [show cfg0.N = 64 from N_0]; decide⟩

/-- After the last point the cell holds the mean loss. -/
theorem cell_last (c : Dev nD) : outsAt0 m c (lastPt).val (lastPt).isLt = cell (mean (loss m c)) := by
  have h0 : ¬(lastPt).val % 64 = 0 := by decide
  have h1 : (lastPt).val % 64 = 63 := by decide
  refine (outsAt0_C m c lastPt h0 h1).trans ?_
  refine (last c _ _ _ _ _ _ _ _ _ _ _ _ _ _ _ _ _ _ _ _ _ _ _ _).trans ?_
  show k0_pay2 (added _ _ _ _ _ _ (outsAt0 m c 62 _)) = _
  rw [cell_before_last m c 62 _ (by decide), added_point m c lastPt, divided]
  show cell (Ideal.div (cellAfter m c 62 + blockSum m c 63) count) = _
  rw [← cellAfter_succ]
  unfold cellAfter mean
  rw [show (62 + 1 + 1 : ℕ) = 64 from rfl]
  unfold blockSum
  rw [sum_tiles (loss m c)]

end Cert.KernelIdeal.RunningSum

end
-- ==== Proof.KernelResult.lean ====
/-
  The kernel's result.

  The 1 x 1 output array is written back once, after the last grid point, from the cell; its one block is
  the whole array. So the array ends holding the mean loss, and the host's closing reshape of it to a
  scalar is that number. Read off the run of the whole program: every execution ends with the scalar
  result at the mean loss of the arguments and the six arguments as they were.
-/
import proofs.«119638_j27479200760241_1_alg».proof.Proof.RunningSum
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem

open Idealize.ShloMosaic.Pipeline (Dat)

namespace Cert.KernelIdeal.KernelResult

open Cert.KernelIdeal Cert.KernelIdeal.Gen Cert.KernelIdeal.RunningSum Cert.LossSpec

variable (m : (ℓ : Loc nD τ sig) → Buf (Elt Ideal) ℓ) (ρ : Dev nD → PrngReg)

/-- The 1 x 1 array holding the mean loss. -/
abbrev meanArray (c : Dev nD) : Buf (Elt Ideal) ((c : Thread nD τ).loc main_v7) := fun _ => mean (loss m c)

/-- The one write-back, after point 63, writes the cell: the mean loss at its one position. -/
theorem flushed_eq (c : Dev nD) (t : Fin cfg0.N) (hf : (cfg0.win 6).flush t = true) :
    (dats m 0 c).flushed 6 t = ((cfg0.win 6).blk t).view.read (Elt Ideal) (meanArray m c) := by
  have hN : cfg0.N = 64 := N_0
  have h63 : t.val = 63 := by have := (flush0_6 t).mp hf; have := t.isLt; omega
  obtain rfl : t = lastPt := Fin.ext h63
  show (cfg0.win 6).cut (grid0.coords lastPt) ((dats m 0 c).after 6 lastPt) = _
  rw [after0_6, cell_last]
  rfl

/-- Point 63's block of the 1 x 1 array is the array, so the array ends holding the mean loss. -/
theorem final (c : Dev nD) : (dats m 0 c).arrAt 6 cfg0.N = meanArray m c :=
  (dats m 0 c).arrAt_eq_of_cover 6 (meanArray m c) (flushed_eq m c) fun i =>
    ⟨lastPt, (flush0_6 lastPt).mpr rfl, by
      show i ∈ ((View.whole main_v7).slice (win0_6.rect lastPt)).set
      rw [View.set_slice_whole, Rect.mem_set_unit]
      intro a
      have h0 : (i 0 : Nat) < 1 := (i 0).isLt
      have h1 : (i 1 : Nat) < 1 := (i 1).isLt
      match a with
      | ⟨0, _⟩ => show win0_6.index lastPt 0 * win0_6.size 0 ≤ (i 0 : Nat) ∧ (i 0 : Nat) < win0_6.index lastPt 0 * win0_6.size 0 + win0_6.xsize (grid0.coords lastPt) 0
                  rw [show win0_6.index lastPt 0 * win0_6.size 0 = 0 from by decide +kernel, show win0_6.xsize (grid0.coords lastPt) 0 = 1 from by decide +kernel]; omega
      | ⟨1, _⟩ => show win0_6.index lastPt 1 * win0_6.size 1 ≤ (i 1 : Nat) ∧ (i 1 : Nat) < win0_6.index lastPt 1 * win0_6.size 1 + win0_6.xsize (grid0.coords lastPt) 1
                  rw [show win0_6.index lastPt 1 * win0_6.size 1 = 0 from by decide +kernel, show win0_6.xsize (grid0.coords lastPt) 1 = 1 from by decide +kernel]; omega⟩

/-- The scalar holding the mean loss. -/
abbrev result (c : Dev nD) : Buf (Elt Ideal) ((c : Thread nD τ).loc main_v8) := fun _ => mean (loss m c)

/-- The host's closing reshape of the 1 x 1 array to a scalar reads the mean loss. -/
theorem tail_eq (c : Dev nD) :
    Pipeline.afterTail₀ cfgs (dats m) 0 (V0 m) [hostOps1] c main_v8 = result m c := by
  unfold Pipeline.afterTail₀
  show StableHlo.after hostOps1 _ (Proc.devRef .tc main_v8) = _
  after_results
  rw [Pipeline.withArrays_arr spec0 launch0.win.arr_inj c _ _ 6, final]
  rfl

/-- The run, read: the scalar result at the mean loss, the arguments unchanged. -/
theorem run : θ_run defs (onTc (τ := τ) (main (F := Ideal))) ⟨m, fun _ => 0, ρ⟩ fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KernelResult

end
-- ==== Proof.RefLoss.lean ====
/-
  The reference computes the mean loss.

  Its host program forms, sample by sample, the selected head, the censored loss 1·(z·z), Huber's loss
  (1/2)·(q·q) + 1·(a - q), and the choice between them by the flag; then one sum over all 2^24 samples
  from the initial value 0; then one division by 2^24. Read one operation at a time at a sample, that
  is the specification's per-sample loss, and the whole is the specification's mean.
-/
import proofs.«119638_j27479200760241_1_alg».proof.Proof.Gen.ReferenceIdeal.Read
import proofs.«119638_j27479200760241_1_alg».proof.Proof.LossSpec

noncomputable section

open Idealize.ShloMosaic Idealize.ShloMosaic.TcCoe Idealize.SL.Sem

namespace Cert.ReferenceIdeal.RefLoss

open Cert.ReferenceIdeal Cert.ReferenceIdeal.Read Cert.LossSpec

/-- The selected loss, before the sum, at sample `j`: the specification's per-sample loss of the six
    arrays' entries at `j` (each broadcast constant read at `j` is its scalar). -/
theorem selected_apply (x0 x1 x2 : (⟨S16777216, .f32⟩ : BufTy).Contents (Elt Ideal)) (x3 : (⟨S16777216, .i32⟩ : BufTy).Contents (Elt Ideal))
    (x4 : (⟨S16777216, .i1⟩ : BufTy).Contents (Elt Ideal)) (x5 : (⟨S16777216, .f32⟩ : BufTy).Contents (Elt Ideal)) (j : S16777216.Idx) :
    val_main_v20 (F := Ideal) x0 x1 x2 x3 x4 x5 j = sample (x0 j) (x1 j) (x2 j) (x3 j) (x4 j) (x5 j) := by
  unfold sample censored huber head
  simp only [val_main_v20_apply, val_main_v19_apply, val_main_v18_apply, val_main_v17_apply, val_main_cst_3_apply,
    val_main_v16_apply, val_main_v15_apply, val_main_cst_2_apply, val_main_v14_apply, val_main_v13_apply, val_main_v12_apply,
    val_main_v11_apply, val_main_cst_1_apply, val_main_v10_apply, val_main_v9_apply, val_main_v8_apply, val_main_v7_apply,
    val_main_cst_0_apply, val_main_v6_apply, val_main_v5_apply, val_main_v4_apply, val_main_cst_apply, val_main_v3_apply,
    val_main_v2_apply, val_main_v1_apply, val_main_v0_apply, val_main_c_apply]
  rfl

/-- The result: the mean of the per-sample losses. -/
theorem result_eq (x0 x1 x2 : (⟨S16777216, .f32⟩ : BufTy).Contents (Elt Ideal)) (x3 : (⟨S16777216, .i32⟩ : BufTy).Contents (Elt Ideal))
    (x4 : (⟨S16777216, .i1⟩ : BufTy).Contents (Elt Ideal)) (x5 : (⟨S16777216, .f32⟩ : BufTy).Contents (Elt Ideal)) :
    val_main_v22 (F := Ideal) x0 x1 x2 x3 x4 x5
      = fun _ => mean fun j => sample (x0 j) (x1 j) (x2 j) (x3 j) (x4 j) (x5 j) := by
  funext i
  rw [val_main_v22_apply, val_main_v21_apply, Finset.sum_congr rfl fun j _ => selected_apply x0 x1 x2 x3 x4 x5 j]
  rfl

end Cert.ReferenceIdeal.RefLoss

end
-- ==== Proof.lean ====
/-
  The kernel and its reference compute the same mean loss.

  Both take six arrays of 2^24 samples — two prediction heads, targets, integer ids, censoring flags,
  censoring thresholds — and return one number. Per sample the prediction is the first head where the id
  is zero and the second elsewhere; with a = |prediction - target| and q = min a 1 the Huber loss is
  (1/2)·q² + 1·(a - q); the censored loss is 1·(max (threshold - prediction) 0)²; the flag chooses between
  them; the result is the sum of the chosen losses over all samples, divided by 2^24.

  The reference does this in one pass over the flat arrays. The kernel re-lays each array as 131072 rows
  of 128 lanes and walks 64 blocks of 2048 rows, keeping one running cell: zeroed at the first block,
  increased at every block by that block's sum (lanes first, then rows), divided by 2^24 at the last
  block and written back once. Over the extended reals the two are equal, index by index, because
    * the kernel's ((1/2)·q)·q is the reference's (1/2)·(q·q): multiplication is associative;
    * the kernel's 0 + s(0) + … + s(63) of block sums is the reference's 0 + (sum over all samples):
      addition is commutative and associative, so the tiling is a regrouping of one finite sum;
    * the kernel's flag, widened to 32 bits on the host and compared with zero, is the flag.
  None of these needs the inputs to be finite, so the precondition is not used.

  The three frame claims are the generated runs (the reference's with its result dropped); the ideal pass
  rewrote nothing, so the kernel's idealization is its own text and that claim is trivial.
-/
import proofs.«119638_j27479200760241_1_alg».proof.Defs
import proofs.«119638_j27479200760241_1_alg».proof.Proof.Gen.Kernel
import proofs.«119638_j27479200760241_1_alg».proof.Proof.Gen.Kernel.Skeleton
import proofs.«119638_j27479200760241_1_alg».proof.Proof.Gen.Kernel.Launch
import proofs.«119638_j27479200760241_1_alg».proof.Proof.Gen.Kernel.Points
import proofs.«119638_j27479200760241_1_alg».proof.Proof.Gen.Kernel.Frame
import proofs.«119638_j27479200760241_1_alg».proof.Proof.Gen.KernelIdeal
import proofs.«119638_j27479200760241_1_alg».proof.Proof.Gen.KernelIdeal.Skeleton
import proofs.«119638_j27479200760241_1_alg».proof.Proof.Gen.KernelIdeal.Launch
import proofs.«119638_j27479200760241_1_alg».proof.Proof.Gen.KernelIdeal.Points
import proofs.«119638_j27479200760241_1_alg».proof.Proof.Gen.KernelIdeal.Frame
import proofs.«119638_j27479200760241_1_alg».proof.Proof.Gen.ReferenceIdeal
import proofs.«119638_j27479200760241_1_alg».proof.Proof.Gen.Pre_finite_inputs
import proofs.«119638_j27479200760241_1_alg».proof.Proof.Gen.ReferenceIdeal.Run
import proofs.«119638_j27479200760241_1_alg».proof.Proof.Gen.ReferenceIdeal.Read
import proofs.«119638_j27479200760241_1_alg».proof.Proof.KernelResult
import proofs.«119638_j27479200760241_1_alg».proof.Proof.RefLoss
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- From memories that agree on the arguments the kernel's scalar ends at the mean loss of its arguments
    and the reference's at the mean loss of its own — the same arrays, hence the same number. -/
theorem algebraic : Cert.algebraic_KernelIdeal_ReferenceIdeal := by
  intro m ρ m' ρ' _ hagree
  refine ⟨fun c => Cert.KernelIdeal.KernelResult.result m c, Cert.KernelIdeal.KernelResult.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefLoss.result_eq,
    (hagree c).1, (hagree c).2.1, (hagree c).2.2.1, (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
